-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x4096 : Shape := ⟨3, ![4, 4096, 4096]⟩
abbrev S4096x4096 : Shape := ⟨2, ![4096, 4096]⟩
abbrev S4096 : Shape := ⟨1, ![4096]⟩
abbrev S_ : Shape := ⟨0, ![]⟩

class Facts : Prop where
  bcast_S_S4x4096x4096 : S_.BroadcastsInDim S4x4096x4096 (![] : Fin 0 → Fin S4x4096x4096.rank)
  reducesTo_S4x4096x4096_S_d0_1_2 : S4x4096x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4x4096x4096 .f32) (main_arg1 : FVec F S4096x4096 .f32) (main_arg2 : FVec F S4096 .f32) : IVec S_ 1 :=
  let main_v0 : FVec F S4x4096x4096 .f32 := Host.absf main_arg0
  let main_cst : FVec F S_ .f32 := constant S_ .f32 0x7F800000#32
  let main_v1 : FVec F S4x4096x4096 .f32 := broadcastInDim S4x4096x4096 ![] bcast_S_S4x4096x4096 main_cst
  let main_v2 : IVec S4x4096x4096 1 := cmpf .olt main_v0 main_v1
  let main_c : IVec S_ 1 := constantI S_ 1 1#1
  let main_v3 : IVec S_ 1 := (fun x v => Host.reduce IntOp.andi x v reducesTo_S4x4096x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S4x4096x4096 : Shape := ⟨3, ![4, 4096, 4096]⟩
abbrev S4096x4096 : Shape := ⟨2, ![4096, 4096]⟩
abbrev S4096 : Shape := ⟨1, ![4096]⟩
abbrev S1024 : Shape := ⟨1, ![1024]⟩
abbrev S16384x4096 : Shape := ⟨2, ![16384, 4096]⟩
abbrev S_ : Shape := ⟨0, ![]⟩
abbrev S1024x1 : Shape := ⟨2, ![1024, 1]⟩
abbrev S1 : Shape := ⟨1, ![1]⟩
abbrev S1x1 : Shape := ⟨2, ![1, 1]⟩
abbrev S16384x1024 : Shape := ⟨2, ![16384, 1024]⟩
abbrev S4096x1024 : Shape := ⟨2, ![4096, 1024]⟩
abbrev S1x4096 : Shape := ⟨2, ![1, 4096]⟩
abbrev S512x1024 : Shape := ⟨2, ![512, 1024]⟩
abbrev S512x4096 : Shape := ⟨2, ![512, 4096]⟩

abbrev nBuf : Space → Nat
  | .hbm => 56
  | .vmem => 6
  | .smem => 0
  | _ => 0

abbrev bufTy : (tb : Table) → Fin (tcTables nBuf tb) → BufTy
  | .hbm, ⟨0, _⟩ => ⟨S4x4096x4096, .f32⟩
  | .hbm, ⟨1, _⟩ => ⟨S4096x4096, .f32⟩
  | .hbm, ⟨2, _⟩ => ⟨S4096, .f32⟩
  | .hbm, ⟨3, _⟩ => ⟨S1024, .i32⟩
  | .hbm, ⟨4, _⟩ => ⟨S16384x4096, .f32⟩
  | .hbm, ⟨5, _⟩ => ⟨S_, .i32⟩
  | .hbm, ⟨6, _⟩ => ⟨S1024, .i32⟩
  | .hbm, ⟨7, _⟩ => ⟨S1024, .i1⟩
  | .hbm, ⟨8, _⟩ => ⟨S_, .i32⟩
  | .hbm, ⟨9, _⟩ => ⟨S1024, .i32⟩
  | .hbm, ⟨10, _⟩ => ⟨S1024, .i32⟩
  | .hbm, ⟨11, _⟩ => ⟨S1024, .i32⟩
  | .hbm, ⟨12, _⟩ => ⟨S1024x1, .i32⟩
  | .hbm, ⟨13, _⟩ => ⟨S1, .i32⟩
  | .hbm, ⟨14, _⟩ => ⟨S_, .i32⟩
  | .hbm, ⟨15, _⟩ => ⟨S1024x1, .i32⟩
  | .hbm, ⟨16, _⟩ => ⟨S1024x1, .i1⟩
  | .hbm, ⟨17, _⟩ => ⟨S1x1, .i32⟩
  | .hbm, ⟨18, _⟩ => ⟨S1024x1, .i32⟩
  | .hbm, ⟨19, _⟩ => ⟨S1024x1, .i1⟩
  | .hbm, ⟨20, _⟩ => ⟨S1024x1, .i1⟩
  | .hbm, ⟨21, _⟩ => ⟨S_, .i1⟩
  | .hbm, ⟨22, _⟩ => ⟨S1024, .i1⟩
  | .hbm, ⟨23, _⟩ => ⟨S16384x1024, .f32⟩
  | .hbm, ⟨24, _⟩ => ⟨S16384x1024, .i1⟩
  | .hbm, ⟨25, _⟩ => ⟨S_, .f32⟩
  | .hbm, ⟨26, _⟩ => ⟨S16384x1024, .f32⟩
  | .hbm, ⟨27, _⟩ => ⟨S16384x1024, .f32⟩
  | .hbm, ⟨28, _⟩ => ⟨S16384x1024, .bf16⟩
  | .hbm, ⟨29, _⟩ => ⟨S_, .i32⟩
  | .hbm, ⟨30, _⟩ => ⟨S1024, .i32⟩
  | .hbm, ⟨31, _⟩ => ⟨S1024, .i1⟩
  | .hbm, ⟨32, _⟩ => ⟨S_, .i32⟩
  | .hbm, ⟨33, _⟩ => ⟨S1024, .i32⟩
  | .hbm, ⟨34, _⟩ => ⟨S1024, .i32⟩
  | .hbm, ⟨35, _⟩ => ⟨S1024, .i32⟩
  | .hbm, ⟨36, _⟩ => ⟨S1024x1, .i32⟩
  | .hbm, ⟨37, _⟩ => ⟨S1, .i32⟩
  | .hbm, ⟨38, _⟩ => ⟨S_, .i32⟩
  | .hbm, ⟨39, _⟩ => ⟨S1024x1, .i32⟩
  | .hbm, ⟨40, _⟩ => ⟨S1024x1, .i1⟩
  | .hbm, ⟨41, _⟩ => ⟨S1x1, .i32⟩
  | .hbm, ⟨42, _⟩ => ⟨S1024x1, .i32⟩
  | .hbm, ⟨43, _⟩ => ⟨S1024x1, .i1⟩
  | .hbm, ⟨44, _⟩ => ⟨S1024x1, .i1⟩
  | .hbm, ⟨45, _⟩ => ⟨S_, .i1⟩
  | .hbm, ⟨46, _⟩ => ⟨S1024, .i1⟩
  | .hbm, ⟨47, _⟩ => ⟨S4096x1024, .f32⟩
  | .hbm, ⟨48, _⟩ => ⟨S4096x1024, .i1⟩
  | .hbm, ⟨49, _⟩ => ⟨S_, .f32⟩
  | .hbm, ⟨50, _⟩ => ⟨S4096x1024, .f32⟩
  | .hbm, ⟨51, _⟩ => ⟨S4096x1024, .f32⟩
  | .hbm, ⟨52, _⟩ => ⟨S4096x1024, .bf16⟩
  | .hbm, ⟨53, _⟩ => ⟨S1x4096, .f32⟩
  | .hbm, ⟨54, _⟩ => ⟨S16384x4096, .f32⟩
  | .hbm, ⟨55, _⟩ => ⟨S4x4096x4096, .f32⟩
  | .local _ .vmem, ⟨0, _⟩ => ⟨S512x1024, .bf16⟩
  | .local _ .vmem, ⟨1, _⟩ => ⟨S512x1024, .bf16⟩
  | .local _ .vmem, ⟨2, _⟩ => ⟨S4096x1024, .bf16⟩
  | .local _ .vmem, ⟨3, _⟩ => ⟨S1x4096, .f32⟩
  | .local _ .vmem, ⟨4, _⟩ => ⟨S512x4096, .f32⟩
  | .local _ .vmem, ⟨5, _⟩ => ⟨S512x4096, .f32⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_cst : Ref sig .tc := ⟨.hbm, 25, rfl⟩
abbrev main_call0_v15 : Ref sig .tc := ⟨.hbm, 26, rfl⟩
abbrev main_v1 : Ref sig .tc := ⟨.hbm, 27, rfl⟩
abbrev main_v2 : Ref sig .tc := ⟨.hbm, 28, rfl⟩
abbrev main_call1_c : Ref sig .tc := ⟨.hbm, 29, rfl⟩
abbrev main_call1_v0 : Ref sig .tc := ⟨.hbm, 30, rfl⟩
abbrev main_call1_v1 : Ref sig .tc := ⟨.hbm, 31, rfl⟩
abbrev main_call1_c_0 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_call1_v5 : Ref sig .tc := ⟨.hbm, 36, rfl⟩
abbrev main_call1_c_1 : Ref sig .tc := ⟨.hbm, 37, rfl⟩
abbrev main_call1_c_2 : Ref sig .tc := ⟨.hbm, 38, rfl⟩
abbrev main_call1_v6 : Ref sig .tc := ⟨.hbm, 39, rfl⟩
abbrev main_call1_v7 : Ref sig .tc := ⟨.hbm, 40, rfl⟩
abbrev main_call1_v8 : Ref sig .tc := ⟨.hbm, 41, rfl⟩
abbrev main_call1_v9 : Ref sig .tc := ⟨.hbm, 42, rfl⟩
abbrev main_call1_v10 : Ref sig .tc := ⟨.hbm, 43, rfl⟩
abbrev main_call1_v11 : Ref sig .tc := ⟨.hbm, 44, rfl⟩
abbrev main_call1_c_3 : Ref sig .tc := ⟨.hbm, 45, rfl⟩
abbrev main_call1_v12 : Ref sig .tc := ⟨.hbm, 46, rfl⟩
abbrev main_call1_v13 : Ref sig .tc := ⟨.hbm, 47, rfl⟩
abbrev main_call1_v14 : Ref sig .tc := ⟨.hbm, 48, rfl⟩
abbrev main_call1_cst : Ref sig .tc := ⟨.hbm, 49, rfl⟩
abbrev main_call1_v15 : Ref sig .tc := ⟨.hbm, 50, rfl⟩
abbrev main_v3 : Ref sig .tc := ⟨.hbm, 51, rfl⟩
abbrev main_v4 : Ref sig .tc := ⟨.hbm, 52, rfl⟩
abbrev main_v5 : Ref sig .tc := ⟨.hbm, 53, rfl⟩
abbrev main_v6 : Ref sig .tc := ⟨.hbm, 54, rfl⟩
abbrev main_v7 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S4x4096x4096_S16384x4096 : S4x4096x4096.ShapeCasts S16384x4096
  bcast_S_S1024 : S_.BroadcastsInDim S1024 (![] : Fin 0 → Fin S1024.rank)
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S1_S1x1_1 : S1.BroadcastsInDim S1x1 (![1] : Fin 1 → Fin S1x1.rank)
  bcast_S1x1_S1024x1_0_1 : S1x1.BroadcastsInDim S1024x1 (![0, 1] : Fin 2 → Fin S1024x1.rank)
  reducesTo_S1024x1_S1024_d1 : S1024x1.ReducesTo [1] S1024
  h_S_ : 0 < S_.numel
  bcast_S1024_S16384x1024_1 : S1024.BroadcastsInDim S16384x1024 (![1] : Fin 1 → Fin S16384x1024.rank)
  bcast_S_S16384x1024 : S_.BroadcastsInDim S16384x1024 (![] : Fin 0 → Fin S16384x1024.rank)
  bitsLt_bf16_f32 : FTy.bits .bf16 < FTy.bits .f32
  bcast_S1024_S4096x1024_1 : S1024.BroadcastsInDim S4096x1024 (![1] : Fin 1 → Fin S4096x1024.rank)
  bcast_S_S4096x1024 : S_.BroadcastsInDim S4096x1024 (![] : Fin 0 → Fin S4096x1024.rank)
  shapeCasts_S4096_S1x4096 : S4096.ShapeCasts S1x4096
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S512x4096 : S1x4096.Broadcasts S512x4096
  inb_S512x4096_S512x4096_0_0 : ∀ a, (![0, 0] : Fin 2 → Nat) a + S512x4096.size a ≤ S512x4096.size a
  h_S512x4096 : 0 < S512x4096.numel
  shapeCasts_S16384x4096_S4x4096x4096 : S16384x4096.ShapeCasts S4x4096x4096
  gather_S16384x4096_S1024x1_S16384x1024_0_1_n_n_1_1_163841_wf : GatherDims.WF S16384x4096 S1024x1 S16384x1024 [0] [1] [] [1] [] 1 ![16384, 1]
  gather_S4096x4096_S1024x1_S4096x1024_0_1_n_n_1_1_40961_wf : GatherDims.WF S4096x4096 S1024x1 S4096x1024 [0] [1] [] [1] [] 1 ![4096, 1]
  dot_S512x1024_S4096x1024_S512x4096_1_1_0_0_n_n_wf : DotDims.WF S512x1024 S4096x1024 S512x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S16384x1024.size a
  hwx0_0 : ∀ i : grid0.Coords, EltTy.bits .bf16 = 32 ∨ (Rect.block (s := S16384x1024) S512x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x1024.size a ≤ S4096x1024.size a
  hwx0_1 : ∀ i : grid0.Coords, EltTy.bits .bf16 = 32 ∨ (Rect.block (s := S4096x1024) S4096x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4096.size a ≤ S1x4096.size a
  hwx0_2 : ∀ i : grid0.Coords, EltTy.bits .f32 = 32 ∨ (Rect.block (s := S1x4096) S1x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x4096.size a ≤ S16384x4096.size a
  hwx0_3 : ∀ i : grid0.Coords, EltTy.bits .f32 = 32 ∨ (Rect.block (s := S16384x4096) S512x4096.size (cc0_transform_3 i) (hinb0_3 i)).WholeWords (EltTy.packing .f32)

variable [Facts₀]

def gather_S16384x4096_S1024x1_S16384x1024_0_1_n_n_1_1_163841 : GatherDims S16384x4096 S1024x1 S16384x1024 where
  offsetDims := [0]
  collapsedSliceDims := [1]
  operandBatchingDims := []
  startIndicesBatchingDims := []
  startIndexMap := [1]
  indexVectorDim := 1
  sliceSizes := ![16384, 1]
  wf := gather_S16384x4096_S1024x1_S16384x1024_0_1_n_n_1_1_163841_wf
def gather_S4096x4096_S1024x1_S4096x1024_0_1_n_n_1_1_40961 : GatherDims S4096x4096 S1024x1 S4096x1024 where
  offsetDims := [0]
  collapsedSliceDims := [1]
  operandBatchingDims := []
  startIndicesBatchingDims := []
  startIndexMap := [1]
  indexVectorDim := 1
  sliceSizes := ![4096, 1]
  wf := gather_S4096x4096_S1024x1_S4096x1024_0_1_n_n_1_1_40961_wf
def dot_S512x1024_S4096x1024_S512x4096_1_1_0_0_n_n : DotDims S512x1024 S4096x1024 S512x4096 where
  lhsContracting := [1]
  rhsContracting := [1]
  lhsNonContracting := [0]
  rhsNonContracting := [0]
  lhsBatch := []
  rhsBatch := []
  wf := dot_S512x1024_S4096x1024_S512x4096_1_1_0_0_n_n_wf

abbrev win0_0 : Pipeline.Window sig grid0 :=
  Pipeline.Window.ofSpec (Memref.whole main_v2) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S4096x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S512x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x4096x4096 : Shape := ⟨3, ![4, 4096, 4096]⟩
abbrev S4096x4096 : Shape := ⟨2, ![4096, 4096]⟩
abbrev S4096 : Shape := ⟨1, ![4096]⟩
abbrev S1x1x4096 : Shape := ⟨3, ![1, 1, 4096]⟩

abbrev nBuf : Space → Nat
  | .hbm => 10
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S4096x4096, .f32⟩
  | .hbm, ⟨2, _⟩ => ⟨S4096, .f32⟩
  | .hbm, ⟨3, _⟩ => ⟨S4096, .f32⟩
  | .hbm, ⟨4, _⟩ => ⟨S4096x4096, .f32⟩
  | .hbm, ⟨5, _⟩ => ⟨S4096x4096, .f32⟩
  | .hbm, ⟨6, _⟩ => ⟨S4x4096x4096, .f32⟩
  | .hbm, ⟨7, _⟩ => ⟨S1x1x4096, .f32⟩
  | .hbm, ⟨8, _⟩ => ⟨S4x4096x4096, .f32⟩
  | .hbm, ⟨9, _⟩ => ⟨S4x4096x4096, .f32⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]

class Facts₀ : Prop where
  bcast_S4096_S4096x4096_1 : S4096.BroadcastsInDim S4096x4096 (![1] : Fin 1 → Fin S4096x4096.rank)
  bcast_S4096_S1x1x4096_2 : S4096.BroadcastsInDim S1x1x4096 (![2] : Fin 1 → Fin S1x1x4096.rank)
  bcast_S1x1x4096_S4x4096x4096_0_1_2 : S1x1x4096.BroadcastsInDim S4x4096x4096 (![0, 1, 2] : Fin 3 → Fin S4x4096x4096.rank)
  dot_S4x4096x4096_S4096x4096_S4x4096x4096_2_1_01_0_n_n_wf : DotDims.WF S4x4096x4096 S4096x4096 S4x4096x4096 [2] [1] [0, 1] [0] [] []

variable [Facts₀]

def dot_S4x4096x4096_S4096x4096_S4x4096x4096_2_1_01_0_n_n : DotDims S4x4096x4096 S4096x4096 S4x4096x4096 where
  lhsContracting := [2]
  rhsContracting := [1]
  lhsNonContracting := [0, 1]
  rhsNonContracting := [0]
  lhsBatch := []
  rhsBatch := []
  wf := dot_S4x4096x4096_S4096x4096_S4x4096x4096_2_1_01_0_n_n_wf

class Facts : Prop extends Facts₀ where

variable [Facts]
-- ==== Proof.KernelBody.lean ====
/-
  The kernel body's arithmetic, read entry by entry at the extended reals.

  At a grid point the body holds a block `a` of 512 rows of the gathered activations (1024 kept columns each), the whole
  gathered weight `b` (4096 rows of 1024 kept columns) and the bias row. It stores `a · bᵀ + bias`: entry `(p, n)` of the
  stored block is the sum over the 1024 kept columns `k` of `a[p, k] * b[n, k]`, plus `bias[0, n]`. At the ideal values the
  matrix product into a zero accumulator is exactly that sum, and the casts of a shape to itself are the identity.
-/
import proofs.«111426_j54090818126180_2_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx

/-- The body's contraction: axis 1 of the left block against axis 1 of the right one. -/
abbrev D := dot_S512x1024_S4096x1024_S512x4096_1_1_0_0_n_n

/-- The left operand's row is the output's row. -/
theorem lhs_row (i : S512x4096.Idx) (q : D.contr.Idx) : (D.lhsIdx i q 0).val = (i 0).val := by
  unfold DotDims.lhsIdx
  rw [dif_neg (show ¬(0 : Fin S512x1024.rank) ∈ D.lhsBatch by decide),
    dif_pos (show (0 : Fin S512x1024.rank) ∈ D.lhsNonContracting by decide)]
  rfl

/-- The left operand's column is the contraction position. -/
theorem lhs_col (i : S512x4096.Idx) (q : D.contr.Idx) : (D.lhsIdx i q 1).val = (q ⟨0, by decide⟩).val :=
  D.lhsIdx_val_of_single rfl i q

/-- The right operand's row is the output's column. -/
theorem rhs_row (i : S512x4096.Idx) (q : D.contr.Idx) : (D.rhsIdx i q 0).val = (i 1).val := by
  unfold DotDims.rhsIdx
  rw [dif_neg (show ¬(0 : Fin S4096x1024.rank) ∈ D.rhsBatch by decide),
    dif_pos (show (0 : Fin S4096x1024.rank) ∈ D.rhsNonContracting by decide)]
  rfl

/-- The right operand's column is the contraction position. -/
theorem rhs_col (i : S512x4096.Idx) (q : D.contr.Idx) : (D.rhsIdx i q 1).val = (q ⟨0, by decide⟩).val :=
  D.rhsIdx_val_of_single rfl i q

/-- ENTRY `(p, n)` OF THE STORED BLOCK: the row `a[p, ·]` against the row `b[n, ·]` over the 1024 kept columns, plus the
    bias at `n`. -/
theorem pay_apply (a : Vec Ideal S512x1024 .bf16) (b : Vec Ideal S4096x1024 .bf16) (bias : Vec Ideal S1x4096 .f32)
    (p : Fin 512) (n : Fin 4096) :
    k0_pay1 a b bias (ix2 p n) = (∑ k : Fin 1024, a (ix2 p k) * b (ix2 n k)) + bias (ix2 (0 : Fin 1) n) := by
  unfold k0_pay1
  show matmul (F := Ideal) D none (shapeCast S512x1024 a shapeCasts_S512x1024_S512x1024) (shapeCast S4096x1024 b shapeCasts_S4096x1024_S4096x1024)
        (constant (F := Ideal) S512x4096 .f32 0x00000000#32) (ix2 p n)
      + broadcastTo S512x4096 (shapeCast S1x4096 bias shapeCasts_S1x4096_S1x4096) broadcasts_S1x4096_S512x4096 (ix2 p n) = _
  refine congrArg₂ (· + ·) ?_ ?_
  · refine (Ideal.matmul_constant_zero_apply D none _ _ (ix2 p n)).trans ?_
    rw [← Equiv.sum_comp (contrEquiv1 D 1024 rfl rfl).symm]
    refine Finset.sum_congr rfl fun k _ => ?_
    have hk := contrEquiv1_symm_val D 1024 rfl rfl k
    have el : D.lhsIdx (ix2 p n) ((contrEquiv1 D 1024 rfl rfl).symm k) = ix2 p k := funext fun c => Fin.ext (by
      match c with
      | ⟨0, _⟩ => exact lhs_row _ _
      | ⟨1, _⟩ => exact (lhs_col _ _).trans hk)
    have er : D.rhsIdx (ix2 p n) ((contrEquiv1 D 1024 rfl rfl).symm k) = ix2 n k := funext fun c => Fin.ext (by
      match c with
      | ⟨0, _⟩ => exact rhs_row _ _
      | ⟨1, _⟩ => exact (rhs_col _ _).trans hk)
    rw [el, er, shapeCast_self, shapeCast_self]
  · refine (broadcastTo_apply _ _ (ix2 p n) (ix2 (0 : Fin 1) n) ?_).trans ?_
    · intro c
      match c with
      | ⟨0, _⟩ => rfl
      | ⟨1, _⟩ => rfl
    · rw [shapeCast_self]

end Cert.KernelIdeal.Body

end
-- ==== Proof.KernelValue.lean ====
/-
  From the kernel's blocks to the whole result array, at the extended reals.

  The region runs over 32 grid points. Point `t` is handed rows `512 t … 512 t + 511` of the gathered activations (all
  1024 kept columns), the whole gathered weight and the bias row, and writes back rows `512 t … 512 t + 511` of the
  16384 × 4096 output. By the body's arithmetic, entry `(r, n)` of what it writes is the sum over the kept columns `k` of
  `acts[r, k] * wts[n, k]`, plus `brow[0, n]` — the same function `flat` of the three staged arrays at every point. The 32
  row blocks tile the output, so after the region the output array IS `flat`; the one host line after the region only
  re-lays it as 4 × 4096 × 4096.
-/
import proofs.«111426_j54090818126180_2_alg».proof.Proof.Gen.KernelIdeal.Frame
import proofs.«111426_j54090818126180_2_alg».proof.Proof.KernelBody
import Idealize.ShloMosaic.Lib.Pipeline.Value
import Idealize.ShloMosaic.Lib.StableHlo.Run

noncomputable section

namespace Cert.KernelIdeal.Flat

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The gathered activations as the region finds them: 16384 rows of 1024 kept columns. -/
def acts (c : Dev nD) : S16384x1024.Idx → EReal := V m c main_v2
/-- The gathered weight as the region finds it: 4096 rows of 1024 kept columns. -/
def wts (c : Dev nD) : S4096x1024.Idx → EReal := V m c main_v4
/-- The bias as the region finds it: one row of 4096. -/
def brow (c : Dev nD) : S1x4096.Idx → EReal := V m c main_v5

/-- The output array as ONE function of the staged arrays: entry `(r, n)` is row `r` of the activations against row `n`
    of the weight over the kept columns, plus the bias at `n`. -/
def flat (c : Dev nD) : S16384x4096.Idx → EReal := fun i =>
  (∑ k : Fin 1024, acts m c (ix2 (i 0 : Fin 16384) k) * wts m c (ix2 (i 1 : Fin 4096) k))
    + brow m c (ix2 (0 : Fin 1) (i 1 : Fin 4096))

/-- The grid has 32 points. -/
theorem lt_32 (t : Fin cfg0.N) : t.val < 32 := lt_of_lt_of_eq t.isLt N_0

/-- The printed index maps, decided over the 32 points: the activations' and the output's blocks are row block `t`, the
    weight and the bias are staged whole. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row `p` of the activations' block at point `t` is row `512 t + p` of the gathered activations. -/
theorem iblk0_apply (c : Dev nD) (t : Fin cfg0.N) (p : Fin 512) (k : Fin 1024) (r : Fin 16384) (hr : r.val = t.val * 512 + p.val) :
    iblk m c 0 t (ix2 p k) = acts m c (ix2 r k) := by
  obtain ⟨e0, e1, -⟩ := idx_facts t
  show V m c main_v2 (((cfg0.win 0).blk t).view.emb (ix2 p k)) = V m c main_v2 (ix2 r k)
  refine congrArg (V m c main_v2) (funext fun a => Fin.ext ?_)
  match a with
  | ⟨0, _⟩ => show win0_0.index t (0 : Fin 2) * 512 + 1 * p.val = r.val; omega
  | ⟨1, _⟩ => show win0_0.index t (1 : Fin 2) * 1024 + 1 * k.val = k.val; omega

/-- The weight's block at any point is the whole gathered weight. -/
theorem iblk1_apply (c : Dev nD) (t : Fin cfg0.N) (n : Fin 4096) (k : Fin 1024) :
    iblk m c 1 t (ix2 n k) = wts m c (ix2 n k) := by
  obtain ⟨-, -, e2, e3, -⟩ := idx_facts t
  show V m c main_v4 (((cfg0.win 1).blk t).view.emb (ix2 n k)) = V m c main_v4 (ix2 n k)
  refine congrArg (V m c main_v4) (funext fun a => Fin.ext ?_)
  match a with
  | ⟨0, _⟩ => show win0_1.index t (0 : Fin 2) * 4096 + 1 * n.val = n.val; omega
  | ⟨1, _⟩ => show win0_1.index t (1 : Fin 2) * 1024 + 1 * k.val = k.val; omega

/-- The bias block at any point is the whole bias row. -/
theorem iblk2_apply (c : Dev nD) (t : Fin cfg0.N) (n : Fin 4096) :
    iblk m c 2 t (ix2 (0 : Fin 1) n) = brow m c (ix2 (0 : Fin 1) n) := by
  obtain ⟨-, -, -, -, e4, e5, -⟩ := idx_facts t
  show V m c main_v5 (((cfg0.win 2).blk t).view.emb (ix2 (0 : Fin 1) n)) = V m c main_v5 (ix2 (0 : Fin 1) n)
  refine congrArg (V m c main_v5) (funext fun a => Fin.ext ?_)
  match a with
  | ⟨0, _⟩ => show win0_2.index t (0 : Fin 2) * 1 + 1 * 0 = 0; omega
  | ⟨1, _⟩ => show win0_2.index t (1 : Fin 2) * 4096 + 1 * n.val = n.val; omega

/-- WHAT POINT `t` WRITES BACK is block `t` of `flat`. -/
theorem flushed_eq (c : Dev nD) (t : Fin cfg0.N) :
    (dats m 0 c).flushed 3 t = ((cfg0.win 3).blk t).view.read (Elt Ideal) (flat m c) := by
  show (cfg0.win 3).cut (grid0.coords t) ((dats m 0 c).after 3 t) = _
  rw [after0_3]
  unfold out0_3
  rw [View.canon_unit_zero hz]
  simp only [View.ld_unit_zero (S := S512x1024) hz, View.ld_unit_zero (S := S4096x1024) hz, View.ld_unit_zero (S := S1x4096) hz]
  have ht := lt_32 t
  obtain ⟨-, -, -, -, -, -, e6, e7⟩ := idx_facts t
  funext y
  have hy0 : (y 0).val < 512 := (y 0).isLt
  have hy1 : (y 1).val < 4096 := (y 1).isLt
  -- the entry's place in the array: row 512 t + (its row in the block), the same column
  have hemb : ((cfg0.win 3).blk t).view.emb y = ix2 (⟨t.val * 512 + (y 0).val, by omega⟩ : Fin 16384) (⟨(y 1).val, hy1⟩ : Fin 4096) :=
    funext fun a => Fin.ext (by
      match a with
      | ⟨0, _⟩ => show win0_3.index t (0 : Fin 2) * 512 + 1 * (y 0).val = t.val * 512 + (y 0).val; omega
      | ⟨1, _⟩ => show win0_3.index t (1 : Fin 2) * 4096 + 1 * (y 1).val = (y 1).val; omega)
  show k0_pay1 (iblk m c 0 t) (iblk m c 1 t) (iblk m c 2 t) y = flat m c (((cfg0.win 3).blk t).view.emb y)
  rw [hemb]
  have hy : y = ix2 (⟨(y 0).val, hy0⟩ : Fin 512) (⟨(y 1).val, hy1⟩ : Fin 4096) :=
    funext fun a => Fin.ext (by match a with | ⟨0, _⟩ => rfl | ⟨1, _⟩ => rfl)
  refine (congrArg (k0_pay1 (iblk m c 0 t) (iblk m c 1 t) (iblk m c 2 t)) hy).trans ?_
  refine (Body.pay_apply (iblk m c 0 t) (iblk m c 1 t) (iblk m c 2 t) ⟨(y 0).val, hy0⟩ ⟨(y 1).val, hy1⟩).trans ?_
  show _ = (∑ k : Fin 1024, acts m c (ix2 (⟨t.val * 512 + (y 0).val, by omega⟩ : Fin 16384) k) * wts m c (ix2 (⟨(y 1).val, hy1⟩ : Fin 4096) k))
    + brow m c (ix2 (0 : Fin 1) (⟨(y 1).val, hy1⟩ : Fin 4096))
  refine congrArg₂ (· + ·) (Finset.sum_congr rfl fun k _ => ?_) (iblk2_apply m c t _)
  rw [iblk0_apply m c t ⟨(y 0).val, hy0⟩ k ⟨t.val * 512 + (y 0).val, by omega⟩ rfl, iblk1_apply m c t ⟨(y 1).val, hy1⟩ k]

/-- An index of the output array is in point `t`'s block iff each coordinate is in the block's range on its axis. -/
theorem mem_blk (t : Fin cfg0.N) (i : S16384x4096.Idx) :
    i ∈ ((cfg0.win 3).blk t).view.set ↔ ∀ a : Fin 2, win0_3.index t a * S512x4096.size a ≤ (i a).val
      ∧ (i a).val < win0_3.index t a * S512x4096.size a + S512x4096.size a := by
  show i ∈ ((View.whole main_v6).slice (win0_3.rect t)).set ↔ _
  rw [View.set_slice_whole, Rect.mem_set_unit]
  exact Iff.rfl

/-- The 32 row blocks cover the output: row `r` is in the block of point `r / 512`. -/
theorem cover (i : S16384x4096.Idx) :
    ∃ t : Fin cfg0.N, (cfg0.win 3).flush t = true ∧ i ∈ ((cfg0.win 3).blk t).view.set := by
  have hi0 : (i 0).val < 16384 := (i 0).isLt
  have hi1 : (i 1).val < 4096 := (i 1).isLt
  have hN : (i 0).val / 512 < cfg0.N := lt_of_lt_of_eq (by omega : (i 0).val / 512 < 32) N_0.symm
  obtain ⟨-, -, -, -, -, -, e6, e7⟩ := idx_facts ⟨(i 0).val / 512, hN⟩
  have e6' : win0_3.index ⟨(i 0).val / 512, hN⟩ (0 : Fin 2) = (i 0).val / 512 := e6
  refine ⟨⟨(i 0).val / 512, hN⟩, flush0_3 _, ?_⟩
  rw [mem_blk]
  intro a
  match a with
  | ⟨0, _⟩ =>
    show win0_3.index ⟨(i 0).val / 512, hN⟩ (0 : Fin 2) * 512 ≤ (i 0).val
      ∧ (i 0).val < win0_3.index ⟨(i 0).val / 512, hN⟩ (0 : Fin 2) * 512 + 512
    omega
  | ⟨1, _⟩ =>
    show win0_3.index ⟨(i 0).val / 512, hN⟩ (1 : Fin 2) * 4096 ≤ (i 1).val
      ∧ (i 1).val < win0_3.index ⟨(i 0).val / 512, hN⟩ (1 : Fin 2) * 4096 + 4096
    omega

/-- THE OUTPUT ARRAY after the region is `flat`. -/
theorem final (c : Dev nD) : (dats m 0 c).arrAt 3 cfg0.N = flat m c :=
  (dats m 0 c).arrAt_eq_of_cover 3 (flat m c) (fun t _ => flushed_eq m c t) cover

/-- THE RESULT after the one host line that follows the region: `flat`, re-laid as 4 × 4096 × 4096. -/
theorem tail (c : Dev nD) :
    Pipeline.afterTail₀ cfgs (dats m) 0 (V0 m) [hostOps1] c main_v7
      = shapeCast S4x4096x4096 (flat m c) shapeCasts_S16384x4096_S4x4096x4096 := by
  unfold Pipeline.afterTail₀
  show StableHlo.after hostOps1 _ (Proc.devRef .tc main_v7) = _
  after_results
  have hw : Pipeline.withArrays (cfgs 0).spec c (V0 m c) (fun w => (dats m 0 c).arrAt w (cfgs 0).N)
      (Proc.devRef .tc main_v6) = flat m c :=
    (Pipeline.withArrays_arr spec0 launch0.win.arr_inj c _ _ 3).trans (final m c)
  rw [hw]
  rfl

end Cert.KernelIdeal.Flat

end
-- ==== Proof.LibColumnTake.lean ====
/-
  Two general facts about `jnp.take(x, idx, axis = 1)` on the host, for any operand `x : [R, N]` and index vector of
  length `C` (carried as `[C, 1]`), independent of any particular program.

  * `gather_colTake_apply`: the gather with offset axis 0, collapsed axis 1, start index map `[1]`, index-vector axis 1 and
    slice sizes `[R, 1]`, read at result index `(r, j)`, is the operand at row `r` and at the column the `j`-th start
    index names — read as a signed integer and clamped into `[0, N - 1]`.
  * `reduce_andi_eq_one_of_forall`: a reduction by `and` of one-bit words from the initial word 1 is 1 wherever every word
    is 1 (the converse of the library's reading of `jnp.all`).
-/
import Idealize.ShloMosaic.PureOps
import Idealize.ShloMosaic.Lib.ValueIdx
import Idealize.ShloMosaic.Lib.ReduceAll

namespace Cert.Lib.ColumnTake

open Idealize.ShloMosaic Idealize.ShloMosaic.ValueIdx

/-- The dimension numbers of a take along axis 1: operand `[R, N]`, start indices `[C, 1]`, result `[R, C]`. -/
abbrev colTakeDims (R N C : Nat)
    (wf : GatherDims.WF ⟨2, ![R, N]⟩ ⟨2, ![C, 1]⟩ ⟨2, ![R, C]⟩ [0] [1] [] [1] [] 1 ![R, 1]) :
    GatherDims ⟨2, ![R, N]⟩ ⟨2, ![C, 1]⟩ ⟨2, ![R, C]⟩ where
  offsetDims := [0]
  collapsedSliceDims := [1]
  operandBatchingDims := []
  startIndicesBatchingDims := []
  startIndexMap := [1]
  indexVectorDim := 1
  sliceSizes := ![R, 1]
  wf := wf

/-- THE COLUMN TAKE READ AT `(r, j)`: row `r` of the operand at the column the `j`-th start index names, read signed and
    clamped into `[0, N - 1]`. -/
theorem gather_colTake_apply {α : Type} {R N C w : Nat} (hN : 0 < N)
    (wf : GatherDims.WF ⟨2, ![R, N]⟩ ⟨2, ![C, 1]⟩ ⟨2, ![R, C]⟩ [0] [1] [] [1] [] 1 ![R, 1])
    (x : (⟨2, ![R, N]⟩ : Shape).Idx → α) (idx : IVec ⟨2, ![C, 1]⟩ w) (r : Fin R) (j : Fin C) :
    Host.gather (colTakeDims R N C wf) x idx (ix2 r j)
      = x (ix2 r ⟨min (idx (ix2 j (0 : Fin 1))).toInt.toNat (N - 1), by omega⟩) := by
  unfold Host.gather
  congr 1
  funext a
  refine Fin.ext ?_
  show (colTakeDims R N C wf).start (ix2 r j) idx a + (colTakeDims R N C wf).batchCoord (ix2 r j) a
      + (colTakeDims R N C wf).offCoord (ix2 r j) a = _
  rw [GatherDims.batchCoord_eq_zero _ _ _ List.not_mem_nil, Nat.add_zero]
  match a with
  | ⟨0, _⟩ =>
    -- the row axis: no start index names it, and the result's offset coordinate is the row
    have hs : (colTakeDims R N C wf).start (ix2 r j) idx (0 : Fin 2) = 0 := by
      unfold GatherDims.start
      rw [dif_neg (show (0 : Fin 2) ∉ [(1 : Fin 2)] from by decide)]
    have ho : (colTakeDims R N C wf).offCoord (ix2 r j) (0 : Fin 2) = r.val := by
      unfold GatherDims.offCoord
      rw [dif_pos ((GatherDims.mem_sKept _ _).2 ⟨show (0 : Fin 2) ∉ [(1 : Fin 2)] from by decide, List.not_mem_nil⟩)]
      rfl
    show (colTakeDims R N C wf).start (ix2 r j) idx (0 : Fin 2) + (colTakeDims R N C wf).offCoord (ix2 r j) (0 : Fin 2) = r.val
    rw [hs, ho, Nat.zero_add]
  | ⟨1, _⟩ =>
    -- the column axis: collapsed, its start the clamped start index
    have ho : (colTakeDims R N C wf).offCoord (ix2 r j) (1 : Fin 2) = 0 :=
      GatherDims.offCoord_eq_zero _ _ _ (fun h => ((GatherDims.mem_sKept _ _).1 h).1 (List.mem_singleton.mpr rfl))
    show (colTakeDims R N C wf).start (ix2 r j) idx (1 : Fin 2) + (colTakeDims R N C wf).offCoord (ix2 r j) (1 : Fin 2)
      = min (idx (ix2 j (0 : Fin 1))).toInt.toNat (N - 1)
    rw [ho, Nat.add_zero]
    unfold GatherDims.start
    rw [dif_pos (show (1 : Fin 2) ∈ (colTakeDims R N C wf).startIndexMap from List.mem_singleton.mpr rfl)]
    have hsi : (colTakeDims R N C wf).siIdx (ix2 r j) ⟨List.idxOf (1 : Fin 2) (colTakeDims R N C wf).startIndexMap,
        List.idxOf_lt_length_iff.2 (List.mem_singleton.mpr rfl)⟩ = ix2 j (0 : Fin 1) := by
      funext b; refine Fin.ext ?_
      match b with
      | ⟨0, _⟩ => rfl
      | ⟨1, _⟩ => rfl
    rw [hsi]
    rfl

/-- A left fold by `and` from 1 over one-bit words that are all 1 is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self, show IntOp.andi (1#1 : BitVec 1) 1#1 = 1#1 from by decide]
    exact foldl_andi_one f l fun n hn => h n (List.mem_cons_of_mem _ hn)

/-- A reduction by `and` from an initial word 1 over words that are all 1 is 1 everywhere. -/
theorem reduce_andi_eq_one_of_forall {s t u : Shape} {axes : List (Fin s.rank)} (x : s.Idx → BitVec 1)
    (init : u.Idx → BitVec 1) (h : s.ReducesTo axes t) (hu : 0 < u.numel) (hinit : init (Shape.Idx.first hu) = 1#1)
    (hx : ∀ i, x i = 1#1) (j : t.Idx) : Host.reduce IntOp.andi x init h hu j = 1#1 := by
  rw [Host.reduce_eq_foldl, hinit]
  exact foldl_andi_one x _ fun n _ => hx n

end Cert.Lib.ColumnTake
-- ==== Proof.KernelTable.lean ====
/-
  The kernel program's index vector, entry by entry.

  The host side of the kernel gathers the kept columns with ONE literal vector of 1024 thirty-two-bit words. Entry `j` is the
  word `8 * (j / 2) + 2 * (j % 2)`: positions 0 and 2 of group `j / 2`. Read as a signed integer it is never negative and
  never above 4095, so the wrap of negative indices leaves it alone, the in-range test passes, and the clamp into
  `[0, 4095]` returns it unchanged. All of this is decided entry by entry over the 1024 entries.
-/
import proofs.«111426_j54090818126180_2_alg».proof.KernelIdeal

namespace Cert.KernelIdeal.Table

open Idealize.ShloMosaic

/-- Entry `j` of the index vector: not negative (so the wrap-around branch is not taken), at least 0 and at most 4095 (so the
    in-range test passes), and its clamp into `[0, 4095]` is the `j`-th kept column `8 * (j / 2) + 2 * (j % 2)`. -/
theorem lit0_facts : ∀ j : Fin 1024,
    IntOp.cmpi .slt (Cert.KernelIdeal.lit0 j) 0#32 = 0#1
    ∧ IntOp.cmpi .sge (Cert.KernelIdeal.lit0 j) 0#32 = 1#1
    ∧ IntOp.cmpi .sle (Cert.KernelIdeal.lit0 j) 4095#32 = 1#1
    ∧ min (Cert.KernelIdeal.lit0 j).toInt.toNat (4096 - 1) = 8 * (j.val / 2) + 2 * (j.val % 2) := by
  decide +kernel

end Cert.KernelIdeal.Table
-- ==== Proof.Spec.lean ====
/-
  The specification of the structured-sparse linear layer, and the one algebraic law that joins its two readings.

  Along the contraction axis of length 4096 a column is KEPT when it sits at position 0 or 2 of its group of eight; there are
  1024 kept columns, and `keptCol j = 8 * (j / 2) + 2 * (j % 2)` lists them in increasing order. One side of the certificate
  sums `x[k] * (w[k] * μ[k])` over all 4096 columns, `μ` being 1 on kept columns and 0 elsewhere; the other sums `x[k] * w[k]`
  over the kept columns only. On the extended reals `b * 1 = b`, `b * 0 = 0` and `a * 0 = 0` hold without exception (also at
  the infinities), a sum over a finite type may be restricted to a subset outside which every term is zero, and a sum over the
  image of an injection is the sum along the injection: so the two sums agree, with no finiteness hypothesis.
-/
import Idealize.ShloMosaic.PureOps.Ideal
import Idealize.ShloMosaic.Lib.ValueIdx

noncomputable section

namespace Cert.SparseLinear

open Idealize.ShloMosaic Idealize.ShloMosaic.ValueIdx

/-- Column `k` of the contraction axis is kept: position 0 or 2 of its group of eight. -/
def Kept (k : Fin 4096) : Prop := k.val % 8 = 0 ∨ k.val % 8 = 2

/-- The `j`-th kept column, in increasing order: two per group of eight. -/
def keptCol (j : Fin 1024) : Fin 4096 := ⟨8 * (j.val / 2) + 2 * (j.val % 2), by omega⟩

theorem keptCol_val (j : Fin 1024) : (keptCol j).val = 8 * (j.val / 2) + 2 * (j.val % 2) := rfl

theorem keptCol_injective : Function.Injective keptCol := by
  intro i j h
  have h' : 8 * (i.val / 2) + 2 * (i.val % 2) = 8 * (j.val / 2) + 2 * (j.val % 2) := congrArg Fin.val h
  exact Fin.ext (by omega)

theorem kept_keptCol (j : Fin 1024) : Kept (keptCol j) := by
  unfold Kept; rw [keptCol_val]; omega

/-- Every kept column is listed: column `k` is number `2 * (k / 8) + (k % 8) / 2`. -/
theorem exists_keptCol_of_kept (k : Fin 4096) (h : Kept k) : ∃ j, keptCol j = k := by
  unfold Kept at h
  refine ⟨⟨2 * (k.val / 8) + (k.val % 8) / 2, by omega⟩, Fin.ext ?_⟩
  rw [keptCol_val]
  show 8 * ((2 * (k.val / 8) + (k.val % 8) / 2) / 2) + 2 * ((2 * (k.val / 8) + (k.val % 8) / 2) % 2) = k.val
  omega

/-- THE LAW. A sum over all columns of `a k * (b k * μ k)`, the mask `μ` one on kept columns and zero on the others, is the sum
    over the kept columns of `a * b`. No term is assumed finite. -/
theorem sum_masked_eq_sum_kept (a b μ : Fin 4096 → EReal) (h1 : ∀ k, Kept k → μ k = 1) (h0 : ∀ k, ¬ Kept k → μ k = 0) :
    ∑ k : Fin 4096, a k * (b k * μ k) = ∑ j : Fin 1024, a (keptCol j) * b (keptCol j) := by
  rw [← Finset.sum_image (f := fun k => a k * b k) (s := Finset.univ) (g := keptCol)
    (fun x _ y _ h => keptCol_injective h)]
  rw [← Finset.sum_subset (Finset.subset_univ (Finset.univ.image keptCol)) (f := fun k => a k * (b k * μ k))]
  · refine Finset.sum_congr rfl fun k hk => ?_
    obtain ⟨j, -, rfl⟩ := Finset.mem_image.mp hk
    rw [h1 _ (kept_keptCol j), mul_one]
  · intro k _ hk
    have hnk : ¬ Kept k := fun hkept => by
      obtain ⟨j, rfl⟩ := exists_keptCol_of_kept k hkept
      exact hk (Finset.mem_image.mpr ⟨j, Finset.mem_univ _, rfl⟩)
    rw [h0 k hnk, mul_zero, mul_zero]

/-- Entry `(b, s, n)` of the layer's result: the row `x[b, s, ·]` against the row `w[n, ·]` over the kept columns, plus
    `bias[n]`. -/
def entry (x : (⟨3, ![4, 4096, 4096]⟩ : Shape).Idx → EReal) (w : (⟨2, ![4096, 4096]⟩ : Shape).Idx → EReal)
    (bias : (⟨1, ![4096]⟩ : Shape).Idx → EReal) (b : Fin 4) (s : Fin 4096) (n : Fin 4096) : EReal :=
  (∑ j : Fin 1024, x (ix3 b s (keptCol j)) * w (ix2 n (keptCol j))) + bias (ix1 n)

/-- The layer's result as ONE function of the three argument arrays. -/
def result (x : (⟨3, ![4, 4096, 4096]⟩ : Shape).Idx → EReal) (w : (⟨2, ![4096, 4096]⟩ : Shape).Idx → EReal)
    (bias : (⟨1, ![4096]⟩ : Shape).Idx → EReal) : (⟨3, ![4, 4096, 4096]⟩ : Shape).Idx → EReal :=
  fun i => entry x w bias (i 0 : Fin 4) (i 1 : Fin 4096) (i 2 : Fin 4096)

theorem result_ix3 (x : (⟨3, ![4, 4096, 4096]⟩ : Shape).Idx → EReal) (w : (⟨2, ![4096, 4096]⟩ : Shape).Idx → EReal)
    (bias : (⟨1, ![4096]⟩ : Shape).Idx → EReal) (b : Fin 4) (s : Fin 4096) (n : Fin 4096) :
    result x w bias (ix3 b s n) = entry x w bias b s n := rfl

end Cert.SparseLinear

end
-- ==== Proof.KernelHost.lean ====
/-
  The arrays the kernel's one region stages, entry by entry, as entries of the program's arguments.

  Before the region the program gathers the kept columns of the input (reshaped to rows) and of the weight with ONE literal
  vector of 1024 column numbers, and reshapes the bias to a row. Each gather is a take along axis 1: negative
  indices wrap, an in-range test guards the gathered value (else a NaN), and the gather clamps the index. The vector's
  entries are all in range and never negative, so entry `j` of the gathered axis is the argument at column
  `8 * (j / 2) + 2 * (j % 2)`, the `j`-th kept column; the narrowing to bf16 is the identity on extended reals.
-/
import proofs.«111426_j54090818126180_2_alg».proof.Proof.Gen.KernelIdeal.Frame
import proofs.«111426_j54090818126180_2_alg».proof.Proof.LibColumnTake
import proofs.«111426_j54090818126180_2_alg».proof.Proof.KernelTable
import proofs.«111426_j54090818126180_2_alg».proof.Proof.Spec
import Idealize.ShloMosaic.Lib.StableHlo.Run
import Idealize.ShloMosaic.Lib.ValueIdx
import Idealize.ShloMosaic.Lib.Pipeline.Value
import Idealize.ShloMosaic.PureOps.Ideal

noncomputable section

namespace Cert.KernelIdeal.Host

open Cert.KernelIdeal Cert.KernelIdeal.Gen Idealize.ShloMosaic Idealize.ShloMosaic.TcCoe Idealize.SL.Sem Idealize.ShloMosaic.StableHlo
open Idealize.ShloMosaic.ValueIdx

/-! ## The integer chain both gathers share -/

/-- The vector of column numbers, as the program reads its literal table. -/
def tbl : IVec S1024 32 := fun i => lit0 (S1024.rowMajor i)

/-- The start indices of a gather: negative column numbers wrapped by 4096, carried as a column. -/
def wrapped (c : IVec S1024 32) : IVec S1024x1 32 :=
  broadcastInDim S1024x1 ![0] bcast_S1024_S1024x1_0
    (select (cmpi .slt c (broadcastInDim S1024 ![] bcast_S_S1024 (constantI S_ 32 0#32)))
      (addi c (broadcastInDim S1024 ![] bcast_S_S1024 (constantI S_ 32 4096#32))) c)

/-- The in-range test of each start index, `0 ≤ idx ≤ 4095`, reduced by `and` over the unit axis. -/
def inRange (c : IVec S1024 32) : IVec S1024 1 :=
  Host.reduce IntOp.andi
    (andi (cmpi .sge (wrapped c) (broadcastInDim S1024x1 ![] bcast_S_S1024x1 (constantI S_ 32 0#32)))
      (cmpi .sle (wrapped c) (broadcastInDim S1024x1 ![0, 1] bcast_S1x1_S1024x1_0_1
        (broadcastInDim S1x1 ![1] bcast_S1_S1x1_1 (constantI S1 32 4095#32)))))
    (constantI S_ 1 1#1) reducesTo_S1024x1_S1024_d1 h_S_

variable (m : (ℓ : Loc nD τ sig) → Buf (Elt Ideal) ℓ)

/-! ## The three staged arrays as terms of the arguments -/

set_option maxHeartbeats 2000000 in
/-- The staged input: the gather of the reshaped input, guarded and narrowed. -/
theorem V_main_v2 (c : Dev nD) :
    (V m c main_v2 : S16384x1024.Idx → EReal) =
      truncf (F := Ideal) .bf16
        (select (broadcastInDim S16384x1024 ![1] bcast_S1024_S16384x1024_1 (inRange tbl))
          (Host.gather gather_S16384x4096_S1024x1_S16384x1024_0_1_n_n_1_1_163841
            (shapeCast S16384x4096 (m ((c.tc : Thread nD τ).loc main_arg0) : S4x4096x4096.Idx → EReal) shapeCasts_S4x4096x4096_S16384x4096)
            (wrapped tbl))
          (broadcastInDim S16384x1024 ![] bcast_S_S16384x1024 (constant (F := Ideal) S_ .f32 0x7FC00000#32)))
        bitsLt_bf16_f32 := by
  dsimp only [V, V0]
  simp only [hostOps0, hostOps0_1, hostOps0_2, hostOps0_3, hostOps0_4, List.flatten_cons, List.flatten_nil, List.append_nil, List.cons_append, List.nil_append]
  after_results_simp
  rfl

set_option maxHeartbeats 2000000 in
/-- The staged weight: the gather of the weight, guarded and narrowed. -/
theorem V_main_v4 (c : Dev nD) :
    (V m c main_v4 : S4096x1024.Idx → EReal) =
      truncf (F := Ideal) .bf16
        (select (broadcastInDim S4096x1024 ![1] bcast_S1024_S4096x1024_1 (inRange tbl))
          (Host.gather gather_S4096x4096_S1024x1_S4096x1024_0_1_n_n_1_1_40961
            (m ((c.tc : Thread nD τ).loc main_arg1) : S4096x4096.Idx → EReal)
            (wrapped tbl))
          (broadcastInDim S4096x1024 ![] bcast_S_S4096x1024 (constant (F := Ideal) S_ .f32 0x7FC00000#32)))
        bitsLt_bf16_f32 := by
  dsimp only [V, V0]
  simp only [hostOps0, hostOps0_1, hostOps0_2, hostOps0_3, hostOps0_4, List.flatten_cons, List.flatten_nil, List.append_nil, List.cons_append, List.nil_append]
  after_results_simp
  rfl

set_option maxHeartbeats 2000000 in
/-- The staged bias: the bias reshaped to a row. -/
theorem V_main_v5 (c : Dev nD) :
    (V m c main_v5 : S1x4096.Idx → EReal) =
      shapeCast S1x4096 (m ((c.tc : Thread nD τ).loc main_arg2) : S4096.Idx → EReal) shapeCasts_S4096_S1x4096 := by
  dsimp only [V, V0]
  simp only [hostOps0, hostOps0_1, hostOps0_2, hostOps0_3, hostOps0_4, List.flatten_cons, List.flatten_nil, List.append_nil, List.cons_append, List.nil_append]
  after_results_simp
  rfl

/-! ## The integer chain at an index -/

/-- The row-major position of a rank-1 index is its coordinate. -/
theorem rowMajor_ix1 (j : Fin 1024) : S1024.rowMajor (ix1 j) = j := Fin.ext (Shape.rowMajor_val_one _)

theorem tbl_apply (j : Fin 1024) : tbl (ix1 j) = lit0 j := by
  unfold tbl; rw [rowMajor_ix1]

/-- A start index is the column number itself: no entry of the vector is negative, so nothing wraps. -/
theorem wrapped_apply (j : Fin 1024) : wrapped tbl (ix2 j (0 : Fin 1)) = lit0 j := by
  unfold wrapped
  rw [broadcastInDim_apply _ _ _ (ix2 j (0 : Fin 1)) (ix1 j) (fun a => by match a with | ⟨0, _⟩ => rfl), select_apply]
  show Scalar.select (IntOp.cmpi .slt (tbl (ix1 j)) 0#32) _ (tbl (ix1 j)) = lit0 j
  rw [tbl_apply, (Table.lit0_facts j).1, select_zero]

/-- Every start index passes the in-range test. -/
theorem inRange_apply (i : S1024.Idx) : inRange tbl i = 1#1 := by
  unfold inRange
  refine Cert.Lib.ColumnTake.reduce_andi_eq_one_of_forall _ _ _ _ rfl (fun i' => ?_) i
  obtain ⟨j, z, rfl⟩ : ∃ (j : Fin 1024) (z : Fin 1), i' = ix2 j z := ⟨i' 0, i' 1, eq_ix2 i'⟩
  obtain rfl : z = 0 := Subsingleton.elim _ _
  show IntOp.andi (IntOp.cmpi .sge (wrapped tbl (ix2 j (0 : Fin 1))) 0#32)
    (IntOp.cmpi .sle (wrapped tbl (ix2 j (0 : Fin 1))) 4095#32) = 1#1
  rw [wrapped_apply, (Table.lit0_facts j).2.1, (Table.lit0_facts j).2.2.1]
  decide

/-- The column a start index names, clamped into `[0, 4095]`, is the kept column. -/
theorem clamp_eq (j : Fin 1024) :
    min (wrapped tbl (ix2 j (0 : Fin 1))).toInt.toNat (4096 - 1) = (Cert.SparseLinear.keptCol j).val := by
  rw [wrapped_apply, (Table.lit0_facts j).2.2.2, Cert.SparseLinear.keptCol_val]

/-! ## The two gathers' dimension numbers are a take along axis 1 -/

theorem gather_acts_eq : gather_S16384x4096_S1024x1_S16384x1024_0_1_n_n_1_1_163841
    = Cert.Lib.ColumnTake.colTakeDims 16384 4096 1024 gather_S16384x4096_S1024x1_S16384x1024_0_1_n_n_1_1_163841_wf := rfl

theorem gather_wts_eq : gather_S4096x4096_S1024x1_S4096x1024_0_1_n_n_1_1_40961
    = Cert.Lib.ColumnTake.colTakeDims 4096 4096 1024 gather_S4096x4096_S1024x1_S4096x1024_0_1_n_n_1_1_40961_wf := rfl

/-- A take along axis 1 with these start indices reads the operand at the kept column. -/
theorem take_apply {R : Nat} (wf : GatherDims.WF ⟨2, ![R, 4096]⟩ ⟨2, ![1024, 1]⟩ ⟨2, ![R, 1024]⟩ [0] [1] [] [1] [] 1 ![R, 1])
    (x : (⟨2, ![R, 4096]⟩ : Shape).Idx → EReal) (r : Fin R) (j : Fin 1024) :
    Host.gather (Cert.Lib.ColumnTake.colTakeDims R 4096 1024 wf) x (wrapped tbl) (ix2 r j)
      = x (ix2 r (Cert.SparseLinear.keptCol j)) := by
  rw [Cert.Lib.ColumnTake.gather_colTake_apply (by decide) wf x (wrapped tbl) r j]
  exact congrArg (fun k => x (ix2 r k)) (Fin.ext (clamp_eq j))

/-! ## The staged arrays at an index -/

/-- The staged input at row `4096 b + s` and column `j` is the input at `(b, s)` and the `j`-th kept column. -/
theorem acts_apply (c : Dev nD) (b : Fin 4) (s : Fin 4096) (j : Fin 1024) (r : Fin 16384) (hr : r.val = b.val * 4096 + s.val) :
    (V m c main_v2 : S16384x1024.Idx → EReal) (ix2 r j)
      = (m ((c.tc : Thread nD τ).loc main_arg0) : S4x4096x4096.Idx → EReal) (ix3 b s (Cert.SparseLinear.keptCol j)) := by
  rw [V_main_v2, truncf_apply, select_apply,
    broadcastInDim_apply _ _ _ (ix2 r j) (ix1 j) (fun a => by match a with | ⟨0, _⟩ => rfl),
    inRange_apply, select_one, gather_acts_eq, take_apply]
  refine shapeCast_apply _ _ _ (ix3 b s (Cert.SparseLinear.keptCol j)) ?_
  rw [Shape.rowMajor_val_three, Shape.rowMajor_val_two]
  show (b.val * 4096 + s.val) * 4096 + (Cert.SparseLinear.keptCol j).val = r.val * 4096 + (Cert.SparseLinear.keptCol j).val
  rw [hr]

/-- The staged weight at row `n` and column `j` is the weight at row `n` and the `j`-th kept column. -/
theorem wts_apply (c : Dev nD) (n : Fin 4096) (j : Fin 1024) :
    (V m c main_v4 : S4096x1024.Idx → EReal) (ix2 n j)
      = (m ((c.tc : Thread nD τ).loc main_arg1) : S4096x4096.Idx → EReal) (ix2 n (Cert.SparseLinear.keptCol j)) := by
  rw [V_main_v4, truncf_apply, select_apply,
    broadcastInDim_apply _ _ _ (ix2 n j) (ix1 j) (fun a => by match a with | ⟨0, _⟩ => rfl),
    inRange_apply, select_one, gather_wts_eq, take_apply]

/-- The staged bias row at column `n` is the bias at `n`. -/
theorem brow_apply (c : Dev nD) (n : Fin 4096) :
    (V m c main_v5 : S1x4096.Idx → EReal) (ix2 (0 : Fin 1) n)
      = (m ((c.tc : Thread nD τ).loc main_arg2) : S4096.Idx → EReal) (ix1 n) := by
  rw [V_main_v5]
  refine shapeCast_apply _ _ _ (ix1 n) ?_
  rw [Shape.rowMajor_val_one, Shape.rowMajor_val_two]
  show n.val = (0 : Fin 1).val * 4096 + n.val
  simp

end Cert.KernelIdeal.Host

end
-- ==== Proof.KernelResult.lean ====
/-
  The kernel program's result, as the specification of its arguments.

  After the region the 16384 × 4096 output holds, at `(r, n)`, the sum over the kept columns of the gathered activations'
  row `r` against the gathered weight's row `n`, plus the bias at `n`. The gathered arrays are the arguments read at the kept
  columns, and the last host line re-lays row `4096 b + s` as entry `(b, s, ·)`: so the program's result is the layer's
  specification of the three argument arrays, entry by entry.
-/
import proofs.«111426_j54090818126180_2_alg».proof.Proof.KernelValue
import proofs.«111426_j54090818126180_2_alg».proof.Proof.KernelHost
import proofs.«111426_j54090818126180_2_alg».proof.Proof.Spec

noncomputable section

namespace Cert.KernelIdeal.Result

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ) (ρ : Dev nD → PrngReg)

/-- THE BRIDGE on the kernel's side: the output array, re-laid as 4 × 4096 × 4096, is the specification of the three
    ARGUMENT arrays — row `4096 b + s` of the flat array is entry `(b, s, ·)`, the gathered activations and weight are the
    arguments at the kept columns, and the staged bias row is the bias. -/
theorem flat_relaid (c : Dev nD) :
    shapeCast S4x4096x4096 (Flat.flat m c) shapeCasts_S16384x4096_S4x4096x4096
      = Cert.SparseLinear.result (m ((c.tc : Thread nD τ).loc main_arg0)) (m ((c.tc : Thread nD τ).loc main_arg1))
          (m ((c.tc : Thread nD τ).loc main_arg2)) := by
  funext i
  obtain ⟨b, s, n, rfl⟩ : ∃ (b : Fin 4) (s n : Fin 4096), i = ix3 b s n := ⟨i 0, i 1, i 2, eq_ix3 i⟩
  rw [Cert.SparseLinear.result_ix3]
  have hb := b.isLt
  have hs := s.isLt
  refine (shapeCast_apply (Flat.flat m c) _ (ix3 b s n) (ix2 (⟨b.val * 4096 + s.val, by omega⟩ : Fin 16384) n) ?_).trans ?_
  · rw [Shape.rowMajor_val_two, Shape.rowMajor_val_three]
    rfl
  · show (∑ k : Fin 1024, Flat.acts m c (ix2 (⟨b.val * 4096 + s.val, by omega⟩ : Fin 16384) k) * Flat.wts m c (ix2 n k))
        + Flat.brow m c (ix2 (0 : Fin 1) n) = _
    unfold Cert.SparseLinear.entry
    refine congrArg₂ (· + ·) (Finset.sum_congr rfl fun k _ => ?_) (Host.brow_apply m c n)
    exact congrArg₂ (· * ·) (Host.acts_apply m c b s k _ rfl) (Host.wts_apply m c n k)

/-- THE KERNEL PROGRAM'S RUN at the ideal values: every weakly fair execution terminates with the result at the
    specification of the argument arrays, and the arguments unchanged. -/
theorem run : θ_run (defs (F := Ideal)) (onTc (τ := τ) (main (F := Ideal))) ⟨m, fun _ => 0, ρ⟩ fun r => ∀ c : Dev nD,
      r.2.mem ((c.tc : Thread nD τ).loc main_v7) = Cert.SparseLinear.result (m ((c.tc : Thread nD τ).loc main_arg0))
          (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c =>
    ⟨(((h c).2 main_v7 (Pipeline.mem_restRefs_of main_v7 (by decide) (by decide))).trans (Flat.tail m c)).trans (flat_relaid m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Result

end
-- ==== Proof.RefValue.lean ====
/-
  The reference program's run, and its result read as the specification of the structured-sparse linear layer.

  The program computes a mask vector (one on the kept columns of the contraction axis, zero elsewhere) from a literal
  table, multiplies the weight by the mask broadcast along its rows, contracts the input with the masked weight over
  the 4096 columns, and adds the bias broadcast over the two leading axes. Read at one index, the contraction is
  the sum over all columns of input times (weight times mask), which the law of the specification turns into the sum over
  the kept columns.
-/
import proofs.«111426_j54090818126180_2_alg».proof.Proof.Gen.ReferenceIdeal
import proofs.«111426_j54090818126180_2_alg».proof.Proof.Spec
import Idealize.ShloMosaic.Lib.StableHlo.Run
import Idealize.ShloMosaic.Lib.ValueIdx
import Idealize.ShloMosaic.Lib.IdealHost
import Idealize.ShloMosaic.Lib.Pipeline.Value
import Idealize.ShloMosaic.PureOps.Ideal.Laws

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx

variable {F : FTy → Type} [FloatOps F]

/-- The mask: the dense literal of 4096 words, each read as a float. -/
def mask : (⟨S4096, .f32⟩ : BufTy).Contents (Elt F) := fun i => FloatOps.ofBits .f32 (lit0 (S4096.rowMajor i))

/-- @main's 7 operations, in order. -/
abbrev ops : List (HloOp τ sig (Elt F)) :=
  [ nullary main_cst (fun i => FloatOps.ofBits .f32 (lit0 (S4096.rowMajor i))),
    unary main_cst main_v0 (broadcastInDim S4096x4096 ![1] bcast_S4096_S4096x4096_1 : (⟨S4096, .f32⟩ : BufTy).Contents (Elt F) → (⟨S4096x4096, .f32⟩ : BufTy).Contents (Elt F)),
    binary main_arg1 main_v0 main_v1 (mulf : (⟨S4096x4096, .f32⟩ : BufTy).Contents (Elt F) → (⟨S4096x4096, .f32⟩ : BufTy).Contents (Elt F) → (⟨S4096x4096, .f32⟩ : BufTy).Contents (Elt F)),
    binary main_arg0 main_v1 main_v2 ((fun l r => Host.dotGeneral dot_S4x4096x4096_S4096x4096_S4x4096x4096_2_1_01_0_n_n none l r) : (⟨S4x4096x4096, .f32⟩ : BufTy).Contents (Elt F) → (⟨S4096x4096, .f32⟩ : BufTy).Contents (Elt F) → (⟨S4x4096x4096, .f32⟩ : BufTy).Contents (Elt F)),
    unary main_arg2 main_v3 (broadcastInDim S1x1x4096 ![2] bcast_S4096_S1x1x4096_2 : (⟨S4096, .f32⟩ : BufTy).Contents (Elt F) → (⟨S1x1x4096, .f32⟩ : BufTy).Contents (Elt F)),
    unary main_v3 main_v4 (broadcastInDim S4x4096x4096 ![0, 1, 2] bcast_S1x1x4096_S4x4096x4096_0_1_2 : (⟨S1x1x4096, .f32⟩ : BufTy).Contents (Elt F) → (⟨S4x4096x4096, .f32⟩ : BufTy).Contents (Elt F)),
    binary main_v2 main_v4 main_v5 (addf : (⟨S4x4096x4096, .f32⟩ : BufTy).Contents (Elt F) → (⟨S4x4096x4096, .f32⟩ : BufTy).Contents (Elt F) → (⟨S4x4096x4096, .f32⟩ : BufTy).Contents (Elt F)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., unary_bufs_sub .., binary_bufs_sub .., binary_bufs_sub .., unary_bufs_sub .., unary_bufs_sub .., binary_bufs_sub ..⟩

/-- The composed term of the seven operations, as a function of the three arguments. -/
def term (x : (⟨S4x4096x4096, .f32⟩ : BufTy).Contents (Elt F)) (w : (⟨S4096x4096, .f32⟩ : BufTy).Contents (Elt F))
    (bias : (⟨S4096, .f32⟩ : BufTy).Contents (Elt F)) : (⟨S4x4096x4096, .f32⟩ : BufTy).Contents (Elt F) :=
  addf (Host.dotGeneral dot_S4x4096x4096_S4096x4096_S4x4096x4096_2_1_01_0_n_n none x
      (mulf w (broadcastInDim S4096x4096 ![1] bcast_S4096_S4096x4096_1 (mask (F := F)))))
    (broadcastInDim S4x4096x4096 ![0, 1, 2] bcast_S1x1x4096_S4x4096x4096_0_1_2
      (broadcastInDim S1x1x4096 ![2] bcast_S4096_S1x1x4096_2 bias))

/-- On every device, from any memory with zero counters: every weakly fair execution of @main terminates with the
    result at the operations' composed term of the arguments, and the arguments unchanged. -/
theorem run_term (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v5) = term (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v5).trans (by after_results; rfl),
      (h c main_arg0).trans (by after_results),
      (h c main_arg1).trans (by after_results),
      (h c main_arg2).trans (by after_results)⟩)
    (run_seq scopedRefs_eq scopedSems_eq defs main (fun _ => ops) main_eq (fun _ => ops_sub) m ρ)

/-! ## The literal table -/

/-- Every word of the table: the float one at positions 0 and 2 of each group of eight, the float zero elsewhere. -/
theorem lit0_eq : ∀ k : Fin 4096, lit0 k = if k.val % 8 = 0 ∨ k.val % 8 = 2 then 0x3F800000#32 else 0x00000000#32 := by
  decide +kernel

/-! ## The mask at an index -/

/-- The row-major position of a rank-1 index is its coordinate. -/
theorem rowMajor_ix1 (k : Fin 4096) : S4096.rowMajor (ix1 k) = k := Fin.ext (Shape.rowMajor_val_one _)

/-- On a kept column the mask is one. -/
theorem mask_kept (k : Fin 4096) (h : Cert.SparseLinear.Kept k) : mask (F := Ideal) (ix1 k) = 1 := by
  have h' : k.val % 8 = 0 ∨ k.val % 8 = 2 := h
  unfold mask
  rw [rowMajor_ix1, lit0_eq k, if_pos h']
  exact Ideal.ofBits_one_f32

/-- Off the kept columns the mask is zero. -/
theorem mask_not_kept (k : Fin 4096) (h : ¬ Cert.SparseLinear.Kept k) : mask (F := Ideal) (ix1 k) = 0 := by
  have h' : ¬ (k.val % 8 = 0 ∨ k.val % 8 = 2) := h
  unfold mask
  rw [rowMajor_ix1, lit0_eq k, if_neg h']
  exact Ideal.ofBits_zero_f32

/-! ## The contraction's operand indices -/

/-- The contraction's dimension numbers: the input's last axis against the weight's last axis. -/
abbrev D : DotDims S4x4096x4096 S4096x4096 S4x4096x4096 := dot_S4x4096x4096_S4096x4096_S4x4096x4096_2_1_01_0_n_n

theorem lhs0 (i : S4x4096x4096.Idx) (q : D.contr.Idx) : (D.lhsIdx i q 0).val = (i 0).val := by
  unfold DotDims.lhsIdx
  rw [dif_neg (show ¬(0 : Fin S4x4096x4096.rank) ∈ D.lhsBatch by decide), dif_pos (show (0 : Fin S4x4096x4096.rank) ∈ D.lhsNonContracting by decide)]
  rfl
theorem lhs1 (i : S4x4096x4096.Idx) (q : D.contr.Idx) : (D.lhsIdx i q 1).val = (i 1).val := by
  unfold DotDims.lhsIdx
  rw [dif_neg (show ¬(1 : Fin S4x4096x4096.rank) ∈ D.lhsBatch by decide), dif_pos (show (1 : Fin S4x4096x4096.rank) ∈ D.lhsNonContracting by decide)]
  rfl
theorem lhs2 (i : S4x4096x4096.Idx) (q : D.contr.Idx) : (D.lhsIdx i q 2).val = (q ⟨0, by decide⟩).val :=
  D.lhsIdx_val_of_single rfl i q
theorem rhs0 (i : S4x4096x4096.Idx) (q : D.contr.Idx) : (D.rhsIdx i q 0).val = (i 2).val := by
  unfold DotDims.rhsIdx
  rw [dif_neg (show ¬(0 : Fin S4096x4096.rank) ∈ D.rhsBatch by decide), dif_pos (show (0 : Fin S4096x4096.rank) ∈ D.rhsNonContracting by decide)]
  rfl
theorem rhs1 (i : S4x4096x4096.Idx) (q : D.contr.Idx) : (D.rhsIdx i q 1).val = (q ⟨0, by decide⟩).val :=
  D.rhsIdx_val_of_single rfl i q

/-- At result index `(b, s, n)` and column `k` the contraction reads the input at `(b, s, k)` … -/
theorem lhsIdx_ix3 (b : Fin 4) (s n k : Fin 4096) :
    D.lhsIdx (ix3 b s n) ((contrEquiv1 D 4096 rfl rfl).symm k) = ix3 b s k := by
  have hk := contrEquiv1_symm_val D 4096 rfl rfl k
  funext a; apply Fin.ext
  match a with
  | ⟨0, _⟩ => exact lhs0 _ _
  | ⟨1, _⟩ => exact lhs1 _ _
  | ⟨2, _⟩ => exact (lhs2 _ _).trans hk

/-- … and the weight at `(n, k)`. -/
theorem rhsIdx_ix2 (b : Fin 4) (s n k : Fin 4096) :
    D.rhsIdx (ix3 b s n) ((contrEquiv1 D 4096 rfl rfl).symm k) = ix2 n k := by
  have hk := contrEquiv1_symm_val D 4096 rfl rfl k
  funext a; apply Fin.ext
  match a with
  | ⟨0, _⟩ => exact rhs0 _ _
  | ⟨1, _⟩ => exact (rhs1 _ _).trans hk

/-! ## The broadcasts at an index -/

/-- The mask broadcast along the weight's rows reads the mask at the column. -/
theorem bcast_mask_apply (v : S4096.Idx → EReal) (n k : Fin 4096) :
    broadcastInDim S4096x4096 ![1] bcast_S4096_S4096x4096_1 v (ix2 n k) = v (ix1 k) :=
  broadcastInDim_apply _ _ _ _ _ (fun a => by match a with | ⟨0, _⟩ => rfl)

/-- The bias broadcast to the result's shape reads the bias at the last coordinate. -/
theorem bcast_bias_apply (v : S4096.Idx → EReal) (b : Fin 4) (s n : Fin 4096) :
    broadcastInDim S4x4096x4096 ![0, 1, 2] bcast_S1x1x4096_S4x4096x4096_0_1_2
      (broadcastInDim S1x1x4096 ![2] bcast_S4096_S1x1x4096_2 v) (ix3 b s n) = v (ix1 n) := by
  rw [broadcastInDim_apply _ _ _ (ix3 b s n) (ix3 (0 : Fin 1) (0 : Fin 1) n)
      (fun a => by match a with | ⟨0, _⟩ => rfl | ⟨1, _⟩ => rfl | ⟨2, _⟩ => rfl),
    broadcastInDim_apply _ _ _ (ix3 (0 : Fin 1) (0 : Fin 1) n) (ix1 n) (fun a => by match a with | ⟨0, _⟩ => rfl)]

/-! ## The result at an index -/

theorem term_ix3 (x : S4x4096x4096.Idx → EReal) (w : S4096x4096.Idx → EReal) (bias : S4096.Idx → EReal)
    (b : Fin 4) (s n : Fin 4096) :
    term (F := Ideal) x w bias (ix3 b s n) = Cert.SparseLinear.entry x w bias b s n := by
  unfold term Cert.SparseLinear.entry
  rw [addf_apply, bcast_bias_apply]
  refine congrArg (· + bias (ix1 n)) ?_
  simp only [Host.dotGeneral]
  rw [Ideal.dotGeneral_apply, ← Equiv.sum_comp (contrEquiv1 D 4096 rfl rfl).symm]
  simp only [lhsIdx_ix3, rhsIdx_ix2, mulf_apply, bcast_mask_apply]
  exact Cert.SparseLinear.sum_masked_eq_sum_kept (fun k => x (ix3 b s k)) (fun k => w (ix2 n k))
    (fun k => mask (F := Ideal) (ix1 k)) mask_kept mask_not_kept

theorem term_eq_result (x : S4x4096x4096.Idx → EReal) (w : S4096x4096.Idx → EReal) (bias : S4096.Idx → EReal) :
    term (F := Ideal) x w bias = Cert.SparseLinear.result x w bias := by
  funext i
  obtain ⟨b, s, n, rfl⟩ : ∃ (b : Fin 4) (s n : Fin 4096), i = ix3 b s n := ⟨i 0, i 1, i 2, eq_ix3 i⟩
  rw [term_ix3, Cert.SparseLinear.result_ix3]

/-! ## The run -/

/-- On every device, from any memory with zero counters: every weakly fair execution of @main at the ideal values
    terminates with the result equal to the specification of the three arguments, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v5) = Cert.SparseLinear.result (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run (defs (F := Ideal)) _ _).mono (fun _ h c => ⟨(h c).1.trans (term_eq_result _ _ _), (h c).2⟩) (run_term (F := Ideal) m ρ)

end Cert.ReferenceIdeal.RefValue

end
-- ==== Proof.lean ====
/-
  A structured-sparse linear layer, `y = x · (W ∘ mask)ᵀ + b` with a fixed 2-of-8 mask along the contraction axis, against a
  kernel that gathers the two kept columns of every group of eight from `x` and from `W` and multiplies the gathered arrays
  densely.

  At the extended reals both programs compute, at `(b, s, n)`, the sum over the 1024 kept columns `k` of `x[b, s, k] * W[n, k]`,
  plus `bias[n]` (`Cert.SparseLinear.result`, Proof/Spec.lean):
  * the reference sums `x[k] * (W[k] * mask[k])` over all 4096 columns with the mask exactly one on the kept columns and exactly
    zero elsewhere; a factor one disappears, a term with a factor zero is zero also when the other factor is infinite, and
    what is left is the sum over the kept columns (`sum_masked_eq_sum_kept`; Proof/RefValue.lean reads the program);
  * the kernel's index vector lists the kept columns in increasing order, each index in range so that the gather's guard
    passes everywhere and its clamp changes nothing (Proof/KernelTable.lean, Proof/KernelHost.lean); the change of float
    format before the matrix product is the identity; each of the 32 grid points writes 512 rows of the product plus the bias
    (Proof/KernelBody.lean), the row blocks tile the output (Proof/KernelValue.lean), and the last host line only re-lays
    the 16384 rows as 4 × 4096 (Proof/KernelResult.lean).
  No step uses that the inputs are finite. The three frame claims are the programs' runs with the value forgotten; the
  idealization rewrote nothing, so `preserves` is trivial.
-/
import proofs.«111426_j54090818126180_2_alg».proof.Defs
import proofs.«111426_j54090818126180_2_alg».proof.Proof.Gen.Kernel
import proofs.«111426_j54090818126180_2_alg».proof.Proof.Gen.Kernel.Frame
import proofs.«111426_j54090818126180_2_alg».proof.Proof.Gen.KernelIdeal
import proofs.«111426_j54090818126180_2_alg».proof.Proof.Gen.KernelIdeal.Frame
import proofs.«111426_j54090818126180_2_alg».proof.Proof.Gen.ReferenceIdeal
import proofs.«111426_j54090818126180_2_alg».proof.Proof.Gen.Pre_finite_inputs
import proofs.«111426_j54090818126180_2_alg».proof.Proof.KernelResult
import proofs.«111426_j54090818126180_2_alg».proof.Proof.RefValue
import Idealize.ShloMosaic.Adequacy
import Idealize.ShloMosaic.Init

noncomputable section

namespace Cert.Proof

open Idealize.ShloMosaic Idealize.SL.Sem

/-- The word-level kernel runs, and leaves its arguments as they were. -/
theorem frame_kernel : Cert.frame_Kernel (hKernel := Cert.Kernel.Gen.facts) (hPre_finite_inputs := Cert.Pre_finite_inputs.Gen.facts) :=
  fun m ρ _ => Cert.Kernel.Gen.frame m ρ

/-- So does the idealized kernel. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference's frame is its run with the result forgotten. -/
theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.RefValue.run m ρ)

/-- From memories that agree on the three arguments both idealized programs end with the layer's specification of those
    arguments as their result. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.RefValue.run m' ρ')
  rw [(hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
